-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x1x2048x2048 : Shape := ⟨4, ![1, 1, 2048, 2048]⟩
abbrev S1x4x2048x2048 : Shape := ⟨4, ![1, 4, 2048, 2048]⟩
abbrev S_ : Shape := ⟨0, ![]⟩

class Facts : Prop where
  bcast_S_S1x1x2048x2048 : S_.BroadcastsInDim S1x1x2048x2048 (![] : Fin 0 → Fin S1x1x2048x2048.rank)
  reducesTo_S1x1x2048x2048_S_d0_1_2_3 : S1x1x2048x2048.ReducesTo [0, 1, 2, 3] S_
  h_S_ : 0 < S_.numel
  bcast_S_S1x4x2048x2048 : S_.BroadcastsInDim S1x4x2048x2048 (![] : Fin 0 → Fin S1x4x2048x2048.rank)
  reducesTo_S1x4x2048x2048_S_d0_1_2_3 : S1x4x2048x2048.ReducesTo [0, 1, 2, 3] S_

variable [Facts]

def fn_part1 {F : FTy → Type} [FloatOps F] (main_arg4 : FVec F S1x4x2048x2048 .f32) (main_arg5 : FVec F S1x4x2048x2048 .f32) (main_arg6 : FVec F S1x4x2048x2048 .f32) (main_v13 : IVec S_ 1) (main_v16 : IVec S1x1x2048x2048 1) : IVec S_ 1 :=
  let main_c_5 : IVec S_ 1 := constantI S_ 1 1#1
  let main_v17 : IVec S_ 1 := (fun x v => Host.reduce IntOp.andi x v reducesTo_S1x1x2048x2048_S_d0_1_2_3 h_S_) main_v16 main_c_5
  let main_v18 : IVec S_ 1 := andi main_v13 main_v17
  let main_v19 : FVec F S1x4x2048x2048 .f32 := Host.absf main_arg4
  let main_cst_6 : FVec F S_ .f32 := constant S_ .f32 0x7F800000#32
  let main_v20 : FVec F S1x4x2048x2048 .f32 := broadcastInDim S1x4x2048x2048 ![] bcast_S_S1x4x2048x2048 main_cst_6
  let main_v21 : IVec S1x4x2048x2048 1 := cmpf .olt main_v19 main_v20
  let main_c_7 : IVec S_ 1 := constantI S_ 1 1#1
  let main_v22 : IVec S_ 1 := (fun x v => Host.reduce IntOp.andi x v reducesTo_S1x4x2048x2048_S_d0_1_2_3 h_S_) main_v21 main_c_7
  let main_v23 : IVec S_ 1 := andi main_v18 main_v22
  let main_v24 : FVec F S1x4x2048x2048 .f32 := Host.absf main_arg5
  let main_cst_8 : FVec F S_ .f32 := constant S_ .f32 0x7F800000#32
  let main_v25 : FVec F S1x4x2048x2048 .f32 := broadcastInDim S1x4x2048x2048 ![] bcast_S_S1x4x2048x2048 main_cst_8
  let main_v26 : IVec S1x4x2048x2048 1 := cmpf .olt main_v24 main_v25
  let main_c_9 : IVec S_ 1 := constantI S_ 1 1#1
  let main_v27 : IVec S_ 1 := (fun x v => Host.reduce IntOp.andi x v reducesTo_S1x4x2048x2048_S_d0_1_2_3 h_S_) main_v26 main_c_9
  let main_v28 : IVec S_ 1 := andi main_v23 main_v27
  let main_v29 : FVec F S1x4x2048x2048 .f32 := Host.absf main_arg6
  let main_cst_10 : FVec F S_ .f32 := constant S_ .f32 0x7F800000#32
  let main_v30 : FVec F S1x4x2048x2048 .f32 := broadcastInDim S1x4x2048x2048 ![] bcast_S_S1x4x2048x2048 main_cst_10
  let main_v31 : IVec S1x4x2048x2048 1 := cmpf .olt main_v29 main_v30
  let main_c_11 : IVec S_ 1 := constantI S_ 1 1#1
  let main_v32 : IVec S_ 1 := (fun x v => Host.reduce IntOp.andi x v reducesTo_S1x4x2048x2048_S_d0_1_2_3 h_S_) main_v31 main_c_11
  let main_v33 : IVec S_ 1 := andi main_v28 main_v32
  main_v33

def fn {F : FTy → Type} [FloatOps F] (main_arg0 : FVec F S1x1x2048x2048 .f32) (main_arg1 : FVec F S1x1x2048x2048 .f32) (main_arg2 : FVec F S1x1x2048x2048 .f32) (main_arg3 : FVec F S1x1x2048x2048 .f32) (main_arg4 : FVec F S1x4x2048x2048 .f32) (main_arg5 : FVec F S1x4x2048x2048 .f32) (main_arg6 : FVec F S1x4x2048x2048 .f32) : IVec S_ 1 :=
  let main_v0 : FVec F S1x1x2048x2048 .f32 := Host.absf main_arg0
  let main_cst : FVec F S_ .f32 := constant S_ .f32 0x7F800000#32
  let main_v1 : FVec F S1x1x2048x2048 .f32 := broadcastInDim S1x1x2048x2048 ![] bcast_S_S1x1x2048x2048 main_cst
  let main_v2 : IVec S1x1x2048x2048 1 := cmpf .olt main_v0 main_v1
  let main_c : IVec S_ 1 := constantI S_ 1 1#1
  let main_v3 : IVec S_ 1 := (fun x v => Host.reduce IntOp.andi x v reducesTo_S1x1x2048x2048_S_d0_1_2_3 h_S_) main_v2 main_c
  let main_v4 : FVec F S1x1x2048x2048 .f32 := Host.absf main_arg1
  let main_cst_0 : FVec F S_ .f32 := constant S_ .f32 0x7F800000#32
  let main_v5 : FVec F S1x1x2048x2048 .f32 := broadcastInDim S1x1x2048x2048 ![] bcast_S_S1x1x2048x2048 main_cst_0
  let main_v6 : IVec S1x1x2048x2048 1 := cmpf .olt main_v4 main_v5
  let main_c_1 : IVec S_ 1 := constantI S_ 1 1#1
  let main_v7 : IVec S_ 1 := (fun x v => Host.reduce IntOp.andi x v reducesTo_S1x1x2048x2048_S_d0_1_2_3 h_S_) main_v6 main_c_1
  let main_v8 : IVec S_ 1 := andi main_v3 main_v7
  let main_v9 : FVec F S1x1x2048x2048 .f32 := Host.absf main_arg2
  let main_cst_2 : FVec F S_ .f32 := constant S_ .f32 0x7F800000#32
  let main_v10 : FVec F S1x1x2048x2048 .f32 := broadcastInDim S1x1x2048x2048 ![] bcast_S_S1x1x2048x2048 main_cst_2
  let main_v11 : IVec S1x1x2048x2048 1 := cmpf .olt main_v9 main_v10
  let main_c_3 : IVec S_ 1 := constantI S_ 1 1#1
  let main_v12 : IVec S_ 1 := (fun x v => Host.reduce IntOp.andi x v reducesTo_S1x1x2048x2048_S_d0_1_2_3 h_S_) main_v11 main_c_3
  let main_v13 : IVec S_ 1 := andi main_v8 main_v12
  let main_v14 : FVec F S1x1x2048x2048 .f32 := Host.absf main_arg3
  let main_cst_4 : FVec F S_ .f32 := constant S_ .f32 0x7F800000#32
  let main_v15 : FVec F S1x1x2048x2048 .f32 := broadcastInDim S1x1x2048x2048 ![] bcast_S_S1x1x2048x2048 main_cst_4
  let main_v16 : IVec S1x1x2048x2048 1 := cmpf .olt main_v14 main_v15
  fn_part1 (F := F) main_arg4 main_arg5 main_arg6 main_v13 main_v16
-- ==== Kernel.lean ====
abbrev S1x1x2048x2048 : Shape := ⟨4, ![1, 1, 2048, 2048]⟩
abbrev S1x4x2048x2048 : Shape := ⟨4, ![1, 4, 2048, 2048]⟩
abbrev S1x16x2048x2048 : Shape := ⟨4, ![1, 16, 2048, 2048]⟩
abbrev S1x1x32x2048 : Shape := ⟨4, ![1, 1, 32, 2048]⟩
abbrev S1x4x32x2048 : Shape := ⟨4, ![1, 4, 32, 2048]⟩
abbrev S1x16x32x2048 : Shape := ⟨4, ![1, 16, 32, 2048]⟩

abbrev nBuf : Space → Nat
  | .hbm => 8
  | .vmem => 16
  | .smem => 0
  | _ => 0

abbrev bufTy : (tb : Table) → Fin (tcTables nBuf tb) → BufTy
  | .hbm, ⟨0, _⟩ => ⟨S1x1x2048x2048, .f32⟩
  | .hbm, ⟨1, _⟩ => ⟨S1x1x2048x2048, .f32⟩
  | .hbm, ⟨2, _⟩ => ⟨S1x1x2048x2048, .f32⟩
  | .hbm, ⟨3, _⟩ => ⟨S1x1x2048x2048, .f32⟩
  | .hbm, ⟨4, _⟩ => ⟨S1x4x2048x2048, .f32⟩
  | .hbm, ⟨5, _⟩ => ⟨S1x4x2048x2048, .f32⟩
  | .hbm, ⟨6, _⟩ => ⟨S1x4x2048x2048, .f32⟩
  | .hbm, ⟨7, _⟩ => ⟨S1x16x2048x2048, .f32⟩
  | .local _ .vmem, ⟨0, _⟩ => ⟨S1x1x32x2048, .f32⟩
  | .local _ .vmem, ⟨1, _⟩ => ⟨S1x1x32x2048, .f32⟩
  | .local _ .vmem, ⟨2, _⟩ => ⟨S1x1x32x2048, .f32⟩
  | .local _ .vmem, ⟨3, _⟩ => ⟨S1x1x32x2048, .f32⟩
  | .local _ .vmem, ⟨4, _⟩ => ⟨S1x1x32x2048, .f32⟩
  | .local _ .vmem, ⟨5, _⟩ => ⟨S1x1x32x2048, .f32⟩
  | .local _ .vmem, ⟨6, _⟩ => ⟨S1x1x32x2048, .f32⟩
  | .local _ .vmem, ⟨7, _⟩ => ⟨S1x1x32x2048, .f32⟩
  | .local _ .vmem, ⟨8, _⟩ => ⟨S1x4x32x2048, .f32⟩
  | .local _ .vmem, ⟨9, _⟩ => ⟨S1x4x32x2048, .f32⟩
  | .local _ .vmem, ⟨10, _⟩ => ⟨S1x4x32x2048, .f32⟩
  | .local _ .vmem, ⟨11, _⟩ => ⟨S1x4x32x2048, .f32⟩
  | .local _ .vmem, ⟨12, _⟩ => ⟨S1x4x32x2048, .f32⟩
  | .local _ .vmem, ⟨13, _⟩ => ⟨S1x4x32x2048, .f32⟩
  | .local _ .vmem, ⟨14, _⟩ => ⟨S1x16x32x2048, .f32⟩
  | .local _ .vmem, ⟨15, _⟩ => ⟨S1x16x32x2048, .f32⟩
  | _, _ => ⟨S1x1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

abbrev stage0_0 : Fin 2 → Memref sig .tc .vmem S1x1x32x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x32x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x32x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x32x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4x32x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4x32x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4x32x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x16x32x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  inb_S1x1x32x2048_S1x1x32x2048_0_0_0_0 : ∀ a, (![0, 0, 0, 0] : Fin 4 → Nat) a + S1x1x32x2048.size a ≤ S1x1x32x2048.size a
  h_S1x1x32x2048 : 0 < S1x1x32x2048.numel
  natLt_1_32 : 1 < 32
  inb_S1x4x32x2048_S1x4x32x2048_0_0_0_0 : ∀ a, (![0, 0, 0, 0] : Fin 4 → Nat) a + S1x4x32x2048.size a ≤ S1x4x32x2048.size a
  h_S1x4x32x2048 : 0 < S1x4x32x2048.numel
  broadcasts_S1x1x32x2048_S1x4x32x2048 : S1x1x32x2048.Broadcasts S1x4x32x2048
  concatenates_S1x1x32x2048_S1x1x32x2048_S1x1x32x2048_S1x1x32x2048_S1x4x32x2048_S1x4x32x2048_S1x4x32x2048_S1x16x32x2048_d1 : Shape.Concatenates [S1x1x32x2048, S1x1x32x2048, S1x1x32x2048, S1x1x32x2048, S1x4x32x2048, S1x4x32x2048, S1x4x32x2048] S1x16x32x2048 1
  inb_S1x16x32x2048_S1x16x32x2048_0_0_0_0 : ∀ a, (![0, 0, 0, 0] : Fin 4 → Nat) a + S1x16x32x2048.size a ≤ S1x16x32x2048.size a
  h_S1x16x32x2048 : 0 < S1x16x32x2048.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x32x2048.size a ≤ S1x1x2048x2048.size a
  hwx0_0 : ∀ i : grid0.Coords, EltTy.bits .f32 = 32 ∨ (Rect.block (s := S1x1x2048x2048) S1x1x32x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x32x2048.size a ≤ S1x1x2048x2048.size a
  hwx0_1 : ∀ i : grid0.Coords, EltTy.bits .f32 = 32 ∨ (Rect.block (s := S1x1x2048x2048) S1x1x32x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x32x2048.size a ≤ S1x1x2048x2048.size a
  hwx0_2 : ∀ i : grid0.Coords, EltTy.bits .f32 = 32 ∨ (Rect.block (s := S1x1x2048x2048) S1x1x32x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x32x2048.size a ≤ S1x1x2048x2048.size a
  hwx0_3 : ∀ i : grid0.Coords, EltTy.bits .f32 = 32 ∨ (Rect.block (s := S1x1x2048x2048) S1x1x32x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x4x32x2048.size a ≤ S1x4x2048x2048.size a
  hwx0_4 : ∀ i : grid0.Coords, EltTy.bits .f32 = 32 ∨ (Rect.block (s := S1x4x2048x2048) S1x4x32x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x4x32x2048.size a ≤ S1x4x2048x2048.size a
  hwx0_5 : ∀ i : grid0.Coords, EltTy.bits .f32 = 32 ∨ (Rect.block (s := S1x4x2048x2048) S1x4x32x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x4x32x2048.size a ≤ S1x4x2048x2048.size a
  hwx0_6 : ∀ i : grid0.Coords, EltTy.bits .f32 = 32 ∨ (Rect.block (s := S1x4x2048x2048) S1x4x32x2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x16x32x2048.size a ≤ S1x16x2048x2048.size a
  hwx0_7 : ∀ i : grid0.Coords, EltTy.bits .f32 = 32 ∨ (Rect.block (s := S1x16x2048x2048) S1x16x32x2048.size (cc0_transform_7 i) (hinb0_7 i)).WholeWords (EltTy.packing .f32)

variable [Facts₀]

abbrev win0_0 : Pipeline.Window sig grid0 :=
  Pipeline.Window.ofSpec (Memref.whole main_arg0) S1x1x32x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x32x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x32x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1x32x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x4x32x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x4x32x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x4x32x2048.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0) S1x16x32x2048.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S1x1x2048x2048 : Shape := ⟨4, ![1, 1, 2048, 2048]⟩
abbrev S1x4x2048x2048 : Shape := ⟨4, ![1, 4, 2048, 2048]⟩
abbrev S_ : Shape := ⟨0, ![]⟩
abbrev S1x12x2048x2048 : Shape := ⟨4, ![1, 12, 2048, 2048]⟩
abbrev S1x16x2048x2048 : Shape := ⟨4, ![1, 16, 2048, 2048]⟩

abbrev nBuf : Space → Nat
  | .hbm => 65
  | .vmem => 0
  | .smem => 0
  | _ => 0

abbrev bufTy : (tb : Table) → Fin (tcTables nBuf tb) → BufTy
  | .hbm, ⟨0, _⟩ => ⟨S1x1x2048x2048, .f32⟩
  | .hbm, ⟨1, _⟩ => ⟨S1x1x2048x2048, .f32⟩
  | .hbm, ⟨2, _⟩ => ⟨S1x1x2048x2048, .f32⟩
  | .hbm, ⟨3, _⟩ => ⟨S1x1x2048x2048, .f32⟩
  | .hbm, ⟨4, _⟩ => ⟨S1x4x2048x2048, .f32⟩
  | .hbm, ⟨5, _⟩ => ⟨S1x4x2048x2048, .f32⟩
  | .hbm, ⟨6, _⟩ => ⟨S1x4x2048x2048, .f32⟩
  | .hbm, ⟨7, _⟩ => ⟨S1x1x2048x2048, .f32⟩
  | .hbm, ⟨8, _⟩ => ⟨S1x1x2048x2048, .f32⟩
  | .hbm, ⟨9, _⟩ => ⟨S_, .f32⟩
  | .hbm, ⟨10, _⟩ => ⟨S1x1x2048x2048, .f32⟩
  | .hbm, ⟨11, _⟩ => ⟨S1x1x2048x2048, .f32⟩
  | .hbm, ⟨12, _⟩ => ⟨S_, .f32⟩
  | .hbm, ⟨13, _⟩ => ⟨S1x1x2048x2048, .f32⟩
  | .hbm, ⟨14, _⟩ => ⟨S1x1x2048x2048, .f32⟩
  | .hbm, ⟨15, _⟩ => ⟨S1x1x2048x2048, .f32⟩
  | .hbm, ⟨16, _⟩ => ⟨S1x1x2048x2048, .f32⟩
  | .hbm, ⟨17, _⟩ => ⟨S_, .f32⟩
  | .hbm, ⟨18, _⟩ => ⟨S1x1x2048x2048, .f32⟩
  | .hbm, ⟨19, _⟩ => ⟨S1x1x2048x2048, .f32⟩
  | .hbm, ⟨20, _⟩ => ⟨S_, .f32⟩
  | .hbm, ⟨21, _⟩ => ⟨S1x1x2048x2048, .f32⟩
  | .hbm, ⟨22, _⟩ => ⟨S1x1x2048x2048, .f32⟩
  | .hbm, ⟨23, _⟩ => ⟨S1x1x2048x2048, .f32⟩
  | .hbm, ⟨24, _⟩ => ⟨S1x1x2048x2048, .f32⟩
  | .hbm, ⟨25, _⟩ => ⟨S_, .f32⟩
  | .hbm, ⟨26, _⟩ => ⟨S1x1x2048x2048, .f32⟩
  | .hbm, ⟨27, _⟩ => ⟨S1x1x2048x2048, .f32⟩
  | .hbm, ⟨28, _⟩ => ⟨S_, .f32⟩
  | .hbm, ⟨29, _⟩ => ⟨S1x1x2048x2048, .f32⟩
  | .hbm, ⟨30, _⟩ => ⟨S1x1x2048x2048, .f32⟩
  | .hbm, ⟨31, _⟩ => ⟨S1x1x2048x2048, .f32⟩
  | .hbm, ⟨32, _⟩ => ⟨S1x1x2048x2048, .f32⟩
  | .hbm, ⟨33, _⟩ => ⟨S_, .f32⟩
  | .hbm, ⟨34, _⟩ => ⟨S1x1x2048x2048, .f32⟩
  | .hbm, ⟨35, _⟩ => ⟨S1x1x2048x2048, .f32⟩
  | .hbm, ⟨36, _⟩ => ⟨S_, .f32⟩
  | .hbm, ⟨37, _⟩ => ⟨S1x1x2048x2048, .f32⟩
  | .hbm, ⟨38, _⟩ => ⟨S1x1x2048x2048, .f32⟩
  | .hbm, ⟨39, _⟩ => ⟨S_, .f32⟩
  | .hbm, ⟨40, _⟩ => ⟨S1x1x2048x2048, .f32⟩
  | .hbm, ⟨41, _⟩ => ⟨S1x1x2048x2048, .i1⟩
  | .hbm, ⟨42, _⟩ => ⟨S1x1x2048x2048, .f32⟩
  | .hbm, ⟨43, _⟩ => ⟨S_, .f32⟩
  | .hbm, ⟨44, _⟩ => ⟨S1x1x2048x2048, .f32⟩
  | .hbm, ⟨45, _⟩ => ⟨S1x1x2048x2048, .i1⟩
  | .hbm, ⟨46, _⟩ => ⟨S1x1x2048x2048, .f32⟩
  | .hbm, ⟨47, _⟩ => ⟨S1x1x2048x2048, .f32⟩
  | .hbm, ⟨48, _⟩ => ⟨S_, .f32⟩
  | .hbm, ⟨49, _⟩ => ⟨S1x1x2048x2048, .f32⟩
  | .hbm, ⟨50, _⟩ => ⟨S1x1x2048x2048, .i1⟩
  | .hbm, ⟨51, _⟩ => ⟨S1x1x2048x2048, .f32⟩
  | .hbm, ⟨52, _⟩ => ⟨S1x1x2048x2048, .f32⟩
  | .hbm, ⟨53, _⟩ => ⟨S_, .f32⟩
  | .hbm, ⟨54, _⟩ => ⟨S1x1x2048x2048, .f32⟩
  | .hbm, ⟨55, _⟩ => ⟨S1x1x2048x2048, .i1⟩
  | .hbm, ⟨56, _⟩ => ⟨S1x1x2048x2048, .f32⟩
  | .hbm, ⟨57, _⟩ => ⟨S1x4x2048x2048, .f32⟩
  | .hbm, ⟨58, _⟩ => ⟨S1x4x2048x2048, .f32⟩
  | .hbm, ⟨59, _⟩ => ⟨S1x4x2048x2048, .f32⟩
  | .hbm, ⟨60, _⟩ => ⟨S1x4x2048x2048, .f32⟩
  | .hbm, ⟨61, _⟩ => ⟨S1x4x2048x2048, .f32⟩
  | .hbm, ⟨62, _⟩ => ⟨S1x4x2048x2048, .f32⟩
  | .hbm, ⟨63, _⟩ => ⟨S1x12x2048x2048, .f32⟩
  | .hbm, ⟨64, _⟩ => ⟨S1x16x2048x2048, .f32⟩
  | _, _ => ⟨S1x1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_cst_6 : Ref sig .tc := ⟨.hbm, 36, rfl⟩
abbrev main_v22 : Ref sig .tc := ⟨.hbm, 37, rfl⟩
abbrev main_v23 : Ref sig .tc := ⟨.hbm, 38, rfl⟩
abbrev main_cst_7 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_8 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_9 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_10 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩

abbrev nD : Nat := 1
abbrev τ : Topo := Topo.v7x

variable {F : FTy → Type} [FloatOps F]

class Facts₀ : Prop where
  bcast_S_S1x1x2048x2048 : S_.BroadcastsInDim S1x1x2048x2048 (![] : Fin 0 → Fin S1x1x2048x2048.rank)
  bcast_S1x1x2048x2048_S1x4x2048x2048_0_1_2_3 : S1x1x2048x2048.BroadcastsInDim S1x4x2048x2048 (![0, 1, 2, 3] : Fin 4 → Fin S1x4x2048x2048.rank)
  concatenates_S1x4x2048x2048_S1x4x2048x2048_S1x4x2048x2048_S1x12x2048x2048_d1 : Shape.Concatenates [S1x4x2048x2048, S1x4x2048x2048, S1x4x2048x2048] S1x12x2048x2048 1
  concatenates_S1x1x2048x2048_S1x1x2048x2048_S1x1x2048x2048_S1x1x2048x2048_S1x12x2048x2048_S1x16x2048x2048_d1 : Shape.Concatenates [S1x1x2048x2048, S1x1x2048x2048, S1x1x2048x2048, S1x1x2048x2048, S1x12x2048x2048] S1x16x2048x2048 1

variable [Facts₀]

class Facts : Prop extends Facts₀ where

variable [Facts]
-- ==== Proof.PointsMap.lean ====
/-
  The map both programs compute, stated once, entry by entry, on the extended reals.

  Inputs: four score maps of shape [1, 1, 2048, 2048] (text, head, tail, boundary) and three regression maps of
  shape [1, 4, 2048, 2048] (head, tail, boundary). Output: one array of shape [1, 16, 2048, 2048]. Write
  σ(x) = 1 / (1 + e^(-x)) for the logistic function and [σ(x) > θ] for the indicator, 0 or 1, that it exceeds a
  threshold. At the pixel (p, q) the sixteen output channels are

    channel 0        σ(text)
    channel 1        σ(head)
    channel 2        σ(tail)
    channel 3        σ(boundary)
    channels 4..7    reg_head[k]     · ([σ(text) > 0.45] · [σ(head) > 0.5])        k = channel - 4
    channels 8..11   reg_tail[k]     · ([σ(text) > 0.45] · [σ(tail) > 0.5])        k = channel - 8
    channels 12..15  reg_boundary[k] · [σ(boundary) > 0.5]                          k = channel - 12

  every score read at the same pixel. The thresholds are the two floats both programs spell (the words 0x3EE66666 and
  0x3F000000); they are never evaluated, only compared with themselves. Every entry depends on its own pixel only,
  so the same function of the pixel's values (`chanVal`) describes a block of rows and the whole array alike.
-/
import Idealize.ShloMosaic.PureOps.Ideal
import Idealize.ShloMosaic.Lib.ValueIdx

noncomputable section

namespace Cert.PointsMap

open Idealize.ShloMosaic Idealize.ShloMosaic.ValueIdx

/-- The indicator, `0` or `1` as an extended real, that the logistic function of `x` exceeds the float whose word is `θ`. -/
def passes (θ : BitVec 32) (x : Ideal .f32) : Ideal .f32 :=
  FloatOps.uitofp (F := Ideal) .f32 (FloatOps.cmpf (F := Ideal) (φ := .f32) .ogt (Ideal.logistic x) (Ideal.ofBits .f32 θ))

/-- Channel `b` of the output at one pixel, from the pixel's four scores `vt vh vl vb` (text, head, tail, boundary)
    and its three regression quadruples `gh gt gb`. -/
def chanVal (b : Fin 16) (vt vh vl vb : Ideal .f32) (gh gt gb : Fin 4 → Ideal .f32) : Ideal .f32 :=
  if h1 : b.val < 1 then Ideal.logistic vt
  else if h2 : b.val < 2 then Ideal.logistic vh
  else if h3 : b.val < 3 then Ideal.logistic vl
  else if h4 : b.val < 4 then Ideal.logistic vb
  else if h8 : b.val < 8 then gh ⟨b.val - 4, by omega⟩ * (passes 0x3EE66666#32 vt * passes 0x3F000000#32 vh)
  else if h12 : b.val < 12 then gt ⟨b.val - 8, by omega⟩ * (passes 0x3EE66666#32 vt * passes 0x3F000000#32 vl)
  else gb ⟨b.val - 12, by have := b.isLt; omega⟩ * passes 0x3F000000#32 vb

variable (b : Fin 16) (vt vh vl vb : Ideal .f32) (gh gt gb : Fin 4 → Ideal .f32)

theorem chanVal_text (h : b.val < 1) : chanVal b vt vh vl vb gh gt gb = Ideal.logistic vt := by
  unfold chanVal; rw [dif_pos h]

theorem chanVal_head (h0 : 1 ≤ b.val) (h : b.val < 2) : chanVal b vt vh vl vb gh gt gb = Ideal.logistic vh := by
  unfold chanVal; rw [dif_neg (by omega), dif_pos h]

theorem chanVal_tail (h0 : 2 ≤ b.val) (h : b.val < 3) : chanVal b vt vh vl vb gh gt gb = Ideal.logistic vl := by
  unfold chanVal; rw [dif_neg (by omega), dif_neg (by omega), dif_pos h]

theorem chanVal_bond (h0 : 3 ≤ b.val) (h : b.val < 4) : chanVal b vt vh vl vb gh gt gb = Ideal.logistic vb := by
  unfold chanVal; rw [dif_neg (by omega), dif_neg (by omega), dif_neg (by omega), dif_pos h]

theorem chanVal_regHead (h0 : 4 ≤ b.val) (h : b.val < 8) :
    chanVal b vt vh vl vb gh gt gb = gh ⟨b.val - 4, by omega⟩ * (passes 0x3EE66666#32 vt * passes 0x3F000000#32 vh) := by
  unfold chanVal; rw [dif_neg (by omega), dif_neg (by omega), dif_neg (by omega), dif_neg (by omega), dif_pos h]

theorem chanVal_regTail (h0 : 8 ≤ b.val) (h : b.val < 12) :
    chanVal b vt vh vl vb gh gt gb = gt ⟨b.val - 8, by omega⟩ * (passes 0x3EE66666#32 vt * passes 0x3F000000#32 vl) := by
  unfold chanVal
  rw [dif_neg (by omega), dif_neg (by omega), dif_neg (by omega), dif_neg (by omega), dif_neg (by omega), dif_pos h]

theorem chanVal_regBond (h0 : 12 ≤ b.val) :
    chanVal b vt vh vl vb gh gt gb = gb ⟨b.val - 12, by have := b.isLt; omega⟩ * passes 0x3F000000#32 vb := by
  unfold chanVal
  rw [dif_neg (by omega), dif_neg (by omega), dif_neg (by omega), dif_neg (by omega), dif_neg (by omega), dif_neg (by omega)]

/-- The whole output array: at `(0, b, p, q)` channel `b` of the pixel `(p, q)`. -/
def pointsMap (st sh sl sb : (⟨4, ![1, 1, 2048, 2048]⟩ : Shape).Idx → Ideal .f32)
    (rh rt rb : (⟨4, ![1, 4, 2048, 2048]⟩ : Shape).Idx → Ideal .f32) :
    (⟨4, ![1, 16, 2048, 2048]⟩ : Shape).Idx → Ideal .f32 := fun j =>
  chanVal (j 1) (st (ix4 0 0 (j 2) (j 3))) (sh (ix4 0 0 (j 2) (j 3))) (sl (ix4 0 0 (j 2) (j 3))) (sb (ix4 0 0 (j 2) (j 3)))
    (fun k => rh (ix4 0 k (j 2) (j 3))) (fun k => rt (ix4 0 k (j 2) (j 3))) (fun k => rb (ix4 0 k (j 2) (j 3)))

/-- The output array at an index given by its coordinates. -/
theorem pointsMap_ix4 (st sh sl sb : (⟨4, ![1, 1, 2048, 2048]⟩ : Shape).Idx → Ideal .f32)
    (rh rt rb : (⟨4, ![1, 4, 2048, 2048]⟩ : Shape).Idx → Ideal .f32) (a : Fin 1) (b : Fin 16) (p q : Fin 2048) :
    pointsMap st sh sl sb rh rt rb (ix4 a b p q)
      = chanVal b (st (ix4 0 0 p q)) (sh (ix4 0 0 p q)) (sl (ix4 0 0 p q)) (sb (ix4 0 0 p q))
          (fun k => rh (ix4 0 k p q)) (fun k => rt (ix4 0 k p q)) (fun k => rb (ix4 0 k p q)) := rfl

end Cert.PointsMap

end
-- ==== Proof.LibConcatChannels.lean ====
/-
  A concatenation along the channel axis (axis 1) of rank-4 arrays, read at an index given by its four
  coordinates.

  The pieces have shapes [n0, c_k, n2, n3] and are laid end to end along axis 1 of the result
  [n0, N, n2, n3], N the sum of the c_k. Piece k occupies the channels pre ≤ b < pre + c_k, where pre is the sum of
  the extents of the pieces before it. So the concatenation at (a, b, p, q) with b in that span is piece k at
  (a, b - pre, p, q): the coordinates off the channel axis are kept, and the channel coordinate is counted from
  the start of the piece. The statement holds for any number of pieces, any extents and any entry type.
-/
import Idealize.ShloMosaic.Lib.Pipeline.Value
import Idealize.ShloMosaic.Lib.ValueIdx

namespace Idealize.ShloMosaic.ConcatChannels

open Idealize.ShloMosaic Idealize.ShloMosaic.ValueIdx

variable {α : Type}

/-- A concatenation of rank-4 arrays along axis 1 read at `(a, b, p, q)`: piece `k`, whose channels are
    `pre ≤ b < pre + c` (`pre` the extents of the pieces before it added up, `hb : pre + b' = b`), read at
    `(a, b', p, q)`. -/
theorem concatenate_channels_apply {n0 N n2 n3 : Nat} (xs : List ((s : Shape) × (s.Idx → α)))
    (h : Shape.Concatenates (xs.map (·.1)) (⟨4, ![n0, N, n2, n3]⟩ : Shape) (1 : Fin 4))
    (k : Nat) (hk : k < xs.length) (c : Nat) (x : (⟨4, ![n0, c, n2, n3]⟩ : Shape).Idx → α)
    (hxk : xs[k] = ⟨(⟨4, ![n0, c, n2, n3]⟩ : Shape), x⟩) (pre : Nat)
    (hpre : (((xs.take k).map (·.1)).map fun s : Shape =>
      if h : s.rank = (⟨4, ![n0, N, n2, n3]⟩ : Shape).rank then s.size ((1 : Fin 4).cast h.symm) else 0).sum = pre)
    (a : Fin n0) (b : Fin N) (b' : Fin c) (hb : pre + b'.val = b.val) (p : Fin n2) (q : Fin n3) :
    concatenate (⟨4, ![n0, N, n2, n3]⟩ : Shape) (1 : Fin 4) xs h (ix4 a b p q) = x (ix4 a b' p q) := by
  refine concatenate_apply_piece (1 : Fin 4) xs h (ix4 a b p q) k hk _ x hxk rfl pre hpre (ix4 a b' p q) ?_ ?_
  · intro d hd
    match d with
    | ⟨0, _⟩ => rfl
    | ⟨1, _⟩ => exact absurd rfl hd
    | ⟨2, _⟩ => rfl
    | ⟨3, _⟩ => rfl
  · exact hb

end Idealize.ShloMosaic.ConcatChannels
-- ==== Proof.BlockValue.lean ====
/-
  What the kernel body stores, read at one index of the output block.

  At a grid point the body holds a block of 32 rows of each input: four score blocks of shape [1, 1, 32, 2048] and
  three regression blocks of shape [1, 4, 32, 2048]. It applies the logistic function to each score block, turns each
  comparison with a threshold into a bit, widens the bit to a word and converts the word to a float (which is the
  bit converted directly: 0 or 1), multiplies the text mask with the head mask and with the tail mask, repeats each
  one-channel mask along the four regression channels, multiplies by the regression block, and joins the seven
  pieces along the channel axis into one block of sixteen channels. Read at (0, b, r, w): the join picks the piece
  whose span of channels holds b, and every piece at (0, ·, r, w) depends only on the inputs' entries at row r and
  column w. So the stored entry is the specification's channel b (`Cert.PointsMap.chanVal`) of the blocks' entries
  at the pixel (r, w).
-/
import proofs.«162157_j83708912599167_1_alg».proof.Proof.Gen.KernelIdeal.Skeleton
import proofs.«162157_j83708912599167_1_alg».proof.Proof.PointsMap
import proofs.«162157_j83708912599167_1_alg».proof.Proof.LibConcatChannels
import Idealize.ShloMosaic.Lib.Pipeline.Value
import Idealize.ShloMosaic.Lib.ValueIdx
import Idealize.ShloMosaic.Lib.KernelVsHost

noncomputable section

namespace Cert.KernelIdeal.BlockValue

open Cert.KernelIdeal Cert.KernelIdeal.Gen Idealize.ShloMosaic Idealize.ShloMosaic.ValueIdx
open Cert.PointsMap Idealize.ShloMosaic.ConcatChannels

variable (x0 x1 x2 x3 : Vec Ideal S1x1x32x2048 .f32) (x4 x5 x6 : Vec Ideal S1x4x32x2048 .f32)

/-! ## The masks: a comparison's bit, widened and converted, is the indicator -/

/-- The mask of a score block `x` against the threshold with word `θ`, as the body computes it. -/
abbrev bodyMask (θ : BitVec 32) (x : Vec Ideal S1x1x32x2048 .f32) : FVec Ideal S1x1x32x2048 .f32 :=
  sitofp .f32 (extui 32 (cmpf .ogt (logistic x) (broadcast S1x1x32x2048 (Scalar.ofBits (F := Ideal) .f32 θ))) natLt_1_32)

/-- Widening the comparison's bit to a word and converting it signed is converting the bit unsigned. -/
theorem bodyMask_eq (θ : BitVec 32) (x : Vec Ideal S1x1x32x2048 .f32) :
    bodyMask θ x
      = (uitofp .f32 (cmpf .ogt (logistic x) (broadcast S1x1x32x2048 (Scalar.ofBits (F := Ideal) .f32 θ))) : FVec Ideal S1x1x32x2048 .f32) :=
  sitofp_extui_eq_uitofp _ _

/-- The bit converted unsigned, at an index, is the indicator of the entry. -/
theorem uitofp_cmp_apply (θ : BitVec 32) (x : Vec Ideal S1x1x32x2048 .f32) (i : S1x1x32x2048.Idx) :
    (uitofp .f32 (cmpf .ogt (logistic x) (broadcast S1x1x32x2048 (Scalar.ofBits (F := Ideal) .f32 θ))) : FVec Ideal S1x1x32x2048 .f32) i
      = passes θ (x i) := rfl

theorem bodyMask_apply (θ : BitVec 32) (x : Vec Ideal S1x1x32x2048 .f32) (i : S1x1x32x2048.Idx) :
    bodyMask θ x i = passes θ (x i) :=
  (congrFun (bodyMask_eq θ x) i).trans (uitofp_cmp_apply θ x i)

/-! ## A regression block times a one-channel mask repeated along the channels -/

theorem gate_apply (reg : Vec Ideal S1x4x32x2048 .f32) (msk : FVec Ideal S1x1x32x2048 .f32)
    (a : Fin 1) (k : Fin 4) (r : Fin 32) (w : Fin 2048) :
    mulf (F := Ideal) reg (broadcastTo S1x4x32x2048 msk broadcasts_S1x1x32x2048_S1x4x32x2048) (ix4 a k r w)
      = reg (ix4 a k r w) * msk (ix4 0 0 r w) := by
  show reg (ix4 a k r w) * broadcastTo S1x4x32x2048 msk broadcasts_S1x1x32x2048_S1x4x32x2048 (ix4 a k r w) = _
  refine congrArg (fun z => reg (ix4 a k r w) * z) ?_
  exact broadcastTo_apply msk broadcasts_S1x1x32x2048_S1x4x32x2048 (ix4 a k r w) (ix4 0 0 r w) (fun d => match d with
    | ⟨0, _⟩ => by show 0 = if (1 : Nat) = 1 then 0 else _; rw [if_pos rfl]
    | ⟨1, _⟩ => by show 0 = if (1 : Nat) = 1 then 0 else _; rw [if_pos rfl]
    | ⟨2, _⟩ => by show r.val = if (32 : Nat) = 1 then 0 else r.val; rw [if_neg (by decide)]
    | ⟨3, _⟩ => by show w.val = if (2048 : Nat) = 1 then 0 else w.val; rw [if_neg (by decide)])

/-- The head regression piece: the regression entry times the text and head indicators of its pixel. -/
theorem gated_head (a : Fin 1) (k : Fin 4) (r : Fin 32) (w : Fin 2048) :
    k0_pay8 (F := Ideal) x0 x1 x4 (ix4 a k r w)
      = x4 (ix4 a k r w) * (passes 0x3EE66666#32 (x0 (ix4 0 0 r w)) * passes 0x3F000000#32 (x1 (ix4 0 0 r w))) := by
  unfold k0_pay8
  refine (gate_apply x4 (mulf (k0_pay6 (F := Ideal) x0) (bodyMask 0x3F000000#32 x1)) a k r w).trans ?_
  refine congrArg (fun z => x4 (ix4 a k r w) * z) ?_
  show bodyMask 0x3EE66666#32 x0 (ix4 0 0 r w) * bodyMask 0x3F000000#32 x1 (ix4 0 0 r w) = _
  rw [bodyMask_apply, bodyMask_apply]

/-- The tail regression piece. -/
theorem gated_tail (a : Fin 1) (k : Fin 4) (r : Fin 32) (w : Fin 2048) :
    mulf (F := Ideal) x5 (k0_pay9 (F := Ideal) x0 x2) (ix4 a k r w)
      = x5 (ix4 a k r w) * (passes 0x3EE66666#32 (x0 (ix4 0 0 r w)) * passes 0x3F000000#32 (x2 (ix4 0 0 r w))) := by
  unfold k0_pay9
  refine (gate_apply x5 (mulf (k0_pay6 (F := Ideal) x0) (bodyMask 0x3F000000#32 x2)) a k r w).trans ?_
  refine congrArg (fun z => x5 (ix4 a k r w) * z) ?_
  show bodyMask 0x3EE66666#32 x0 (ix4 0 0 r w) * bodyMask 0x3F000000#32 x2 (ix4 0 0 r w) = _
  rw [bodyMask_apply, bodyMask_apply]

/-- The boundary regression piece. -/
theorem gated_bond (a : Fin 1) (k : Fin 4) (r : Fin 32) (w : Fin 2048) :
    mulf (F := Ideal) x6 (broadcastTo S1x4x32x2048 (k0_pay7 (F := Ideal) x3) broadcasts_S1x1x32x2048_S1x4x32x2048) (ix4 a k r w)
      = x6 (ix4 a k r w) * passes 0x3F000000#32 (x3 (ix4 0 0 r w)) := by
  refine (gate_apply x6 (k0_pay7 (F := Ideal) x3) a k r w).trans ?_
  refine congrArg (fun z => x6 (ix4 a k r w) * z) ?_
  show bodyMask 0x3F000000#32 x3 (ix4 0 0 r w) = _
  rw [bodyMask_apply]

/-! ## The stored block at an index -/

/-- THE BODY'S STORED VALUE at `(a, b, r, w)` is channel `b` of the specification at the pixel `(r, w)` of the blocks. -/
theorem stored_apply (a : Fin 1) (b : Fin 16) (r : Fin 32) (w : Fin 2048) :
    k0_pay1 (F := Ideal) (k0_pay2 x0) (k0_pay3 x1) (k0_pay4 x2) (k0_pay5 x3) (k0_pay7 x3) (k0_pay8 x0 x1 x4) x5 (k0_pay9 x0 x2) x6
        (ix4 a b r w)
      = chanVal b (x0 (ix4 0 0 r w)) (x1 (ix4 0 0 r w)) (x2 (ix4 0 0 r w)) (x3 (ix4 0 0 r w))
          (fun k => x4 (ix4 0 k r w)) (fun k => x5 (ix4 0 k r w)) (fun k => x6 (ix4 0 k r w)) := by
  obtain rfl : a = 0 := Subsingleton.elim _ _
  have hb : b.val < 16 := b.isLt
  unfold k0_pay1
  by_cases h1 : b.val < 1
  · rw [chanVal_text _ _ _ _ _ _ _ _ h1]
    refine (concatenate_channels_apply _ _ 0 (by simp) 1 (k0_pay2 (F := Ideal) x0) rfl 0 rfl 0 b ⟨0, Nat.one_pos⟩
      (by show 0 + 0 = b.val; omega) r w).trans ?_
    rfl
  by_cases h2 : b.val < 2
  · rw [chanVal_head _ _ _ _ _ _ _ _ (by omega) h2]
    refine (concatenate_channels_apply _ _ 1 (by simp) 1 (k0_pay3 (F := Ideal) x1) rfl 1 rfl 0 b ⟨0, Nat.one_pos⟩
      (by show 1 + 0 = b.val; omega) r w).trans ?_
    rfl
  by_cases h3 : b.val < 3
  · rw [chanVal_tail _ _ _ _ _ _ _ _ (by omega) h3]
    refine (concatenate_channels_apply _ _ 2 (by simp) 1 (k0_pay4 (F := Ideal) x2) rfl 2 rfl 0 b ⟨0, Nat.one_pos⟩
      (by show 2 + 0 = b.val; omega) r w).trans ?_
    rfl
  by_cases h4 : b.val < 4
  · rw [chanVal_bond _ _ _ _ _ _ _ _ (by omega) h4]
    refine (concatenate_channels_apply _ _ 3 (by simp) 1 (k0_pay5 (F := Ideal) x3) rfl 3 rfl 0 b ⟨0, Nat.one_pos⟩
      (by show 3 + 0 = b.val; omega) r w).trans ?_
    rfl
  by_cases h8 : b.val < 8
  · rw [chanVal_regHead _ _ _ _ _ _ _ _ (by omega) h8]
    refine (concatenate_channels_apply _ _ 4 (by simp) 4 (k0_pay8 (F := Ideal) x0 x1 x4) rfl 4 rfl 0 b ⟨b.val - 4, by omega⟩
      (by show 4 + (b.val - 4) = b.val; omega) r w).trans ?_
    exact gated_head x0 x1 x4 0 _ r w
  by_cases h12 : b.val < 12
  · rw [chanVal_regTail _ _ _ _ _ _ _ _ (by omega) h12]
    refine (concatenate_channels_apply _ _ 5 (by simp) 4 (mulf (F := Ideal) x5 (k0_pay9 (F := Ideal) x0 x2)) rfl 8 rfl 0 b
      ⟨b.val - 8, by omega⟩ (by show 8 + (b.val - 8) = b.val; omega) r w).trans ?_
    exact gated_tail x0 x2 x5 0 _ r w
  · rw [chanVal_regBond _ _ _ _ _ _ _ _ (by omega)]
    refine (concatenate_channels_apply _ _ 6 (by simp) 4
      (mulf (F := Ideal) x6 (broadcastTo S1x4x32x2048 (k0_pay7 (F := Ideal) x3) broadcasts_S1x1x32x2048_S1x4x32x2048)) rfl 12 rfl 0 b
      ⟨b.val - 12, by omega⟩ (by show 12 + (b.val - 12) = b.val; omega) r w).trans ?_
    exact gated_bond x3 x6 0 _ r w

end Cert.KernelIdeal.BlockValue

end
-- ==== Proof.ArrayValue.lean ====
/-
  From the blocks to the whole array: after the run the kernel's result array is the specified map
  (`Cert.PointsMap.pointsMap`) of the seven argument arrays.

  The grid has 64 points. At point t every window's block is rows 32·t .. 32·t + 31 of its array, all channels and all
  columns: block index (0, 0, t, 0) with block extents [1, C, 32, 2048], C the window's channel count. So the entry
  (0, k, r, w) of a block is the array's entry (0, k, 32·t + r, w). The body's stored block is, entry by entry, the
  specification's channel value at the pixel (r, w) of the input blocks (`BlockValue.stored_apply`), that is, of the
  argument arrays at the pixel (32·t + r, w): point t writes back block t of the specified map. The 64 blocks of 32
  rows tile the 2048 rows (row R lies in the block of point R / 32), so every entry of the result array is written by
  exactly the point that computes it, and the array ends at the specified map.
-/
import proofs.«162157_j83708912599167_1_alg».proof.Proof.Gen.KernelIdeal.Value
import proofs.«162157_j83708912599167_1_alg».proof.Proof.PointsMap
import proofs.«162157_j83708912599167_1_alg».proof.Proof.BlockValue
import Idealize.ShloMosaic.Lib.Pipeline.Value
import Idealize.ShloMosaic.Lib.ValueIdx

noncomputable section

namespace Cert.KernelIdeal.ArrayValue

open Cert.KernelIdeal Cert.KernelIdeal.Gen Idealize.ShloMosaic Idealize.ShloMosaic.TcCoe Idealize.SL.Sem
open Idealize.ShloMosaic.Pipeline (Dat)
open Idealize.ShloMosaic.ValueIdx Cert.PointsMap

variable (m : (ℓ : Loc nD τ sig) → Buf (Elt Ideal) ℓ) (ρ : Dev nD → PrngReg)

/-! ## The windows' block indices over the grid -/

theorem zero_offsets : (![0, 0, 0, 0] : Fin 4 → Nat) = fun _ => 0 := funext fun a => by fin_cases a <;> rfl

theorem idx_facts0 : ∀ t : Fin cfg0.N, win0_0.index t (0 : Fin 4) = 0 ∧ win0_0.index t (1 : Fin 4) = 0
    ∧ win0_0.index t (2 : Fin 4) = win0_7.index t (2 : Fin 4) ∧ win0_0.index t (3 : Fin 4) = 0 :=
  (by decide +kernel : ∀ t : Fin grid0.N, _)

theorem idx_facts1 : ∀ t : Fin cfg0.N, win0_1.index t (0 : Fin 4) = 0 ∧ win0_1.index t (1 : Fin 4) = 0
    ∧ win0_1.index t (2 : Fin 4) = win0_7.index t (2 : Fin 4) ∧ win0_1.index t (3 : Fin 4) = 0 :=
  (by decide +kernel : ∀ t : Fin grid0.N, _)

theorem idx_facts2 : ∀ t : Fin cfg0.N, win0_2.index t (0 : Fin 4) = 0 ∧ win0_2.index t (1 : Fin 4) = 0
    ∧ win0_2.index t (2 : Fin 4) = win0_7.index t (2 : Fin 4) ∧ win0_2.index t (3 : Fin 4) = 0 :=
  (by decide +kernel : ∀ t : Fin grid0.N, _)

theorem idx_facts3 : ∀ t : Fin cfg0.N, win0_3.index t (0 : Fin 4) = 0 ∧ win0_3.index t (1 : Fin 4) = 0
    ∧ win0_3.index t (2 : Fin 4) = win0_7.index t (2 : Fin 4) ∧ win0_3.index t (3 : Fin 4) = 0 :=
  (by decide +kernel : ∀ t : Fin grid0.N, _)

theorem idx_facts4 : ∀ t : Fin cfg0.N, win0_4.index t (0 : Fin 4) = 0 ∧ win0_4.index t (1 : Fin 4) = 0
    ∧ win0_4.index t (2 : Fin 4) = win0_7.index t (2 : Fin 4) ∧ win0_4.index t (3 : Fin 4) = 0 :=
  (by decide +kernel : ∀ t : Fin grid0.N, _)

theorem idx_facts5 : ∀ t : Fin cfg0.N, win0_5.index t (0 : Fin 4) = 0 ∧ win0_5.index t (1 : Fin 4) = 0
    ∧ win0_5.index t (2 : Fin 4) = win0_7.index t (2 : Fin 4) ∧ win0_5.index t (3 : Fin 4) = 0 :=
  (by decide +kernel : ∀ t : Fin grid0.N, _)

theorem idx_facts6 : ∀ t : Fin cfg0.N, win0_6.index t (0 : Fin 4) = 0 ∧ win0_6.index t (1 : Fin 4) = 0
    ∧ win0_6.index t (2 : Fin 4) = win0_7.index t (2 : Fin 4) ∧ win0_6.index t (3 : Fin 4) = 0 :=
  (by decide +kernel : ∀ t : Fin grid0.N, _)

/-- The output window's block index at every point: `(0, 0, s, 0)` with `s` below 64. -/
theorem idx_facts7 : ∀ t : Fin cfg0.N, win0_7.index t (0 : Fin 4) = 0 ∧ win0_7.index t (1 : Fin 4) = 0
    ∧ win0_7.index t (2 : Fin 4) ≤ 63 ∧ win0_7.index t (3 : Fin 4) = 0 :=
  (by decide +kernel : ∀ t : Fin grid0.N, _)

/-- Every one of the 64 row blocks is some point's. -/
theorem idx_onto7 : ∀ s : Fin 64, ∃ t : Fin cfg0.N, win0_7.index t = ![0, 0, s.val, 0] :=
  (by decide +kernel : ∀ s : Fin 64, ∃ t : Fin grid0.N, win0_7.index t = ![0, 0, s.val, 0])

/-! ## A block's entry is the array's entry 32·t rows further down -/

/-- Input window 0's block at point `t` holds, at `(0, 0, r, w)`, the array's entry at `(0, 0, R, w)`, `R` row `r` of the point's 32 rows. -/
theorem score_block0 (c : Dev nD) (t : Fin cfg0.N) (r : Fin 32) (w : Fin 2048) (R : Fin 2048)
    (hR : R.val = win0_7.index t (2 : Fin 4) * 32 + r.val) :
    iblk m c 0 t (ix4 (0 : Fin 1) (0 : Fin 1) r w) = V m c main_arg0 (ix4 (0 : Fin 1) (0 : Fin 1) R w) := by
  have e : ((cfg0.win 0).blk t).view.emb (ix4 (0 : Fin 1) (0 : Fin 1) r w) = ix4 (0 : Fin 1) (0 : Fin 1) R w := by
    obtain ⟨e0, e1, e2, e3⟩ := idx_facts0 t
    funext d; apply Fin.ext
    match d with
    | ⟨0, _⟩ => show win0_0.index t (0 : Fin 4) * 1 + 1 * 0 = 0; omega
    | ⟨1, _⟩ => show win0_0.index t (1 : Fin 4) * 1 + 1 * 0 = 0; omega
    | ⟨2, _⟩ => show win0_0.index t (2 : Fin 4) * 32 + 1 * r.val = R.val; omega
    | ⟨3, _⟩ => show win0_0.index t (3 : Fin 4) * 2048 + 1 * w.val = w.val; omega
  show V m c main_arg0 (((cfg0.win 0).blk t).view.emb (ix4 (0 : Fin 1) (0 : Fin 1) r w)) = _
  rw [e]

/-- Input window 1's block at point `t` holds, at `(0, 0, r, w)`, the array's entry at `(0, 0, R, w)`, `R` row `r` of the point's 32 rows. -/
theorem score_block1 (c : Dev nD) (t : Fin cfg0.N) (r : Fin 32) (w : Fin 2048) (R : Fin 2048)
    (hR : R.val = win0_7.index t (2 : Fin 4) * 32 + r.val) :
    iblk m c 1 t (ix4 (0 : Fin 1) (0 : Fin 1) r w) = V m c main_arg1 (ix4 (0 : Fin 1) (0 : Fin 1) R w) := by
  have e : ((cfg0.win 1).blk t).view.emb (ix4 (0 : Fin 1) (0 : Fin 1) r w) = ix4 (0 : Fin 1) (0 : Fin 1) R w := by
    obtain ⟨e0, e1, e2, e3⟩ := idx_facts1 t
    funext d; apply Fin.ext
    match d with
    | ⟨0, _⟩ => show win0_1.index t (0 : Fin 4) * 1 + 1 * 0 = 0; omega
    | ⟨1, _⟩ => show win0_1.index t (1 : Fin 4) * 1 + 1 * 0 = 0; omega
    | ⟨2, _⟩ => show win0_1.index t (2 : Fin 4) * 32 + 1 * r.val = R.val; omega
    | ⟨3, _⟩ => show win0_1.index t (3 : Fin 4) * 2048 + 1 * w.val = w.val; omega
  show V m c main_arg1 (((cfg0.win 1).blk t).view.emb (ix4 (0 : Fin 1) (0 : Fin 1) r w)) = _
  rw [e]

/-- Input window 2's block at point `t` holds, at `(0, 0, r, w)`, the array's entry at `(0, 0, R, w)`, `R` row `r` of the point's 32 rows. -/
theorem score_block2 (c : Dev nD) (t : Fin cfg0.N) (r : Fin 32) (w : Fin 2048) (R : Fin 2048)
    (hR : R.val = win0_7.index t (2 : Fin 4) * 32 + r.val) :
    iblk m c 2 t (ix4 (0 : Fin 1) (0 : Fin 1) r w) = V m c main_arg2 (ix4 (0 : Fin 1) (0 : Fin 1) R w) := by
  have e : ((cfg0.win 2).blk t).view.emb (ix4 (0 : Fin 1) (0 : Fin 1) r w) = ix4 (0 : Fin 1) (0 : Fin 1) R w := by
    obtain ⟨e0, e1, e2, e3⟩ := idx_facts2 t
    funext d; apply Fin.ext
    match d with
    | ⟨0, _⟩ => show win0_2.index t (0 : Fin 4) * 1 + 1 * 0 = 0; omega
    | ⟨1, _⟩ => show win0_2.index t (1 : Fin 4) * 1 + 1 * 0 = 0; omega
    | ⟨2, _⟩ => show win0_2.index t (2 : Fin 4) * 32 + 1 * r.val = R.val; omega
    | ⟨3, _⟩ => show win0_2.index t (3 : Fin 4) * 2048 + 1 * w.val = w.val; omega
  show V m c main_arg2 (((cfg0.win 2).blk t).view.emb (ix4 (0 : Fin 1) (0 : Fin 1) r w)) = _
  rw [e]

/-- Input window 3's block at point `t` holds, at `(0, 0, r, w)`, the array's entry at `(0, 0, R, w)`, `R` row `r` of the point's 32 rows. -/
theorem score_block3 (c : Dev nD) (t : Fin cfg0.N) (r : Fin 32) (w : Fin 2048) (R : Fin 2048)
    (hR : R.val = win0_7.index t (2 : Fin 4) * 32 + r.val) :
    iblk m c 3 t (ix4 (0 : Fin 1) (0 : Fin 1) r w) = V m c main_arg3 (ix4 (0 : Fin 1) (0 : Fin 1) R w) := by
  have e : ((cfg0.win 3).blk t).view.emb (ix4 (0 : Fin 1) (0 : Fin 1) r w) = ix4 (0 : Fin 1) (0 : Fin 1) R w := by
    obtain ⟨e0, e1, e2, e3⟩ := idx_facts3 t
    funext d; apply Fin.ext
    match d with
    | ⟨0, _⟩ => show win0_3.index t (0 : Fin 4) * 1 + 1 * 0 = 0; omega
    | ⟨1, _⟩ => show win0_3.index t (1 : Fin 4) * 1 + 1 * 0 = 0; omega
    | ⟨2, _⟩ => show win0_3.index t (2 : Fin 4) * 32 + 1 * r.val = R.val; omega
    | ⟨3, _⟩ => show win0_3.index t (3 : Fin 4) * 2048 + 1 * w.val = w.val; omega
  show V m c main_arg3 (((cfg0.win 3).blk t).view.emb (ix4 (0 : Fin 1) (0 : Fin 1) r w)) = _
  rw [e]

/-- Input window 4's block at point `t` holds, at `(0, k, r, w)`, the array's entry at `(0, k, R, w)`. -/
theorem reg_block4 (c : Dev nD) (t : Fin cfg0.N) (k : Fin 4) (r : Fin 32) (w : Fin 2048) (R : Fin 2048)
    (hR : R.val = win0_7.index t (2 : Fin 4) * 32 + r.val) :
    iblk m c 4 t (ix4 (0 : Fin 1) k r w) = V m c main_arg4 (ix4 (0 : Fin 1) k R w) := by
  have e : ((cfg0.win 4).blk t).view.emb (ix4 (0 : Fin 1) k r w) = ix4 (0 : Fin 1) k R w := by
    obtain ⟨e0, e1, e2, e3⟩ := idx_facts4 t
    funext d; apply Fin.ext
    match d with
    | ⟨0, _⟩ => show win0_4.index t (0 : Fin 4) * 1 + 1 * 0 = 0; omega
    | ⟨1, _⟩ => show win0_4.index t (1 : Fin 4) * 4 + 1 * k.val = k.val; omega
    | ⟨2, _⟩ => show win0_4.index t (2 : Fin 4) * 32 + 1 * r.val = R.val; omega
    | ⟨3, _⟩ => show win0_4.index t (3 : Fin 4) * 2048 + 1 * w.val = w.val; omega
  show V m c main_arg4 (((cfg0.win 4).blk t).view.emb (ix4 (0 : Fin 1) k r w)) = _
  rw [e]

/-- Input window 5's block at point `t` holds, at `(0, k, r, w)`, the array's entry at `(0, k, R, w)`. -/
theorem reg_block5 (c : Dev nD) (t : Fin cfg0.N) (k : Fin 4) (r : Fin 32) (w : Fin 2048) (R : Fin 2048)
    (hR : R.val = win0_7.index t (2 : Fin 4) * 32 + r.val) :
    iblk m c 5 t (ix4 (0 : Fin 1) k r w) = V m c main_arg5 (ix4 (0 : Fin 1) k R w) := by
  have e : ((cfg0.win 5).blk t).view.emb (ix4 (0 : Fin 1) k r w) = ix4 (0 : Fin 1) k R w := by
    obtain ⟨e0, e1, e2, e3⟩ := idx_facts5 t
    funext d; apply Fin.ext
    match d with
    | ⟨0, _⟩ => show win0_5.index t (0 : Fin 4) * 1 + 1 * 0 = 0; omega
    | ⟨1, _⟩ => show win0_5.index t (1 : Fin 4) * 4 + 1 * k.val = k.val; omega
    | ⟨2, _⟩ => show win0_5.index t (2 : Fin 4) * 32 + 1 * r.val = R.val; omega
    | ⟨3, _⟩ => show win0_5.index t (3 : Fin 4) * 2048 + 1 * w.val = w.val; omega
  show V m c main_arg5 (((cfg0.win 5).blk t).view.emb (ix4 (0 : Fin 1) k r w)) = _
  rw [e]

/-- Input window 6's block at point `t` holds, at `(0, k, r, w)`, the array's entry at `(0, k, R, w)`. -/
theorem reg_block6 (c : Dev nD) (t : Fin cfg0.N) (k : Fin 4) (r : Fin 32) (w : Fin 2048) (R : Fin 2048)
    (hR : R.val = win0_7.index t (2 : Fin 4) * 32 + r.val) :
    iblk m c 6 t (ix4 (0 : Fin 1) k r w) = V m c main_arg6 (ix4 (0 : Fin 1) k R w) := by
  have e : ((cfg0.win 6).blk t).view.emb (ix4 (0 : Fin 1) k r w) = ix4 (0 : Fin 1) k R w := by
    obtain ⟨e0, e1, e2, e3⟩ := idx_facts6 t
    funext d; apply Fin.ext
    match d with
    | ⟨0, _⟩ => show win0_6.index t (0 : Fin 4) * 1 + 1 * 0 = 0; omega
    | ⟨1, _⟩ => show win0_6.index t (1 : Fin 4) * 4 + 1 * k.val = k.val; omega
    | ⟨2, _⟩ => show win0_6.index t (2 : Fin 4) * 32 + 1 * r.val = R.val; omega
    | ⟨3, _⟩ => show win0_6.index t (3 : Fin 4) * 2048 + 1 * w.val = w.val; omega
  show V m c main_arg6 (((cfg0.win 6).blk t).view.emb (ix4 (0 : Fin 1) k r w)) = _
  rw [e]

/-- The output window's block at point `t`: its entry `(a, b, r, w)` sits at `(0, b, R, w)` of the array. -/
theorem out_block (t : Fin cfg0.N) (a : Fin 1) (b : Fin 16) (r : Fin 32) (w : Fin 2048) (R : Fin 2048)
    (hR : R.val = win0_7.index t (2 : Fin 4) * 32 + r.val) :
    ((cfg0.win 7).blk t).view.emb (ix4 a b r w) = ix4 (0 : Fin 1) b R w := by
  obtain ⟨e0, e1, e2, e3⟩ := idx_facts7 t
  have ha : a.val < 1 := a.isLt
  funext d; apply Fin.ext
  match d with
  | ⟨0, _⟩ => show win0_7.index t (0 : Fin 4) * 1 + 1 * a.val = 0; omega
  | ⟨1, _⟩ => show win0_7.index t (1 : Fin 4) * 16 + 1 * b.val = b.val; omega
  | ⟨2, _⟩ => show win0_7.index t (2 : Fin 4) * 32 + 1 * r.val = R.val; omega
  | ⟨3, _⟩ => show win0_7.index t (3 : Fin 4) * 2048 + 1 * w.val = w.val; omega

/-! ## What each point writes back -/

/-- WHAT POINT `t` WRITES BACK is block `t` of the specified map of the argument arrays. -/
theorem flushed_eq (c : Dev nD) (t : Fin cfg0.N) :
    (dats m 0 c).flushed 7 t
      = ((cfg0.win 7).blk t).view.read (Elt Ideal) (pointsMap (V m c main_arg0) (V m c main_arg1) (V m c main_arg2) (V m c main_arg3) (V m c main_arg4) (V m c main_arg5) (V m c main_arg6)) := by
  show (cfg0.win 7).cut (grid0.coords t) ((dats m 0 c).after 7 t) = _
  rw [after0_7]
  unfold out0_7
  rw [View.canon_unit_zero zero_offsets]
  simp only [View.ld_unit_zero (S := S1x1x32x2048) zero_offsets, View.ld_unit_zero (S := S1x4x32x2048) zero_offsets]
  funext j
  obtain ⟨a, b, r, w, rfl⟩ : ∃ (a : Fin 1) (b : Fin 16) (r : Fin 32) (w : Fin 2048), j = ix4 a b r w :=
    ⟨j 0, j 1, j 2, j 3, eq_ix4 j⟩
  have h63 : win0_7.index t (2 : Fin 4) ≤ 63 := (idx_facts7 t).2.2.1
  have hr : r.val < 32 := r.isLt
  obtain ⟨R, hR⟩ : ∃ R : Fin 2048, R.val = win0_7.index t (2 : Fin 4) * 32 + r.val :=
    ⟨⟨win0_7.index t (2 : Fin 4) * 32 + r.val, by omega⟩, rfl⟩
  show k0_pay1 (F := Ideal) (k0_pay2 (iblk m c 0 t)) (k0_pay3 (iblk m c 1 t)) (k0_pay4 (iblk m c 2 t)) (k0_pay5 (iblk m c 3 t))
      (k0_pay7 (iblk m c 3 t)) (k0_pay8 (iblk m c 0 t) (iblk m c 1 t) (iblk m c 4 t)) (iblk m c 5 t)
      (k0_pay9 (iblk m c 0 t) (iblk m c 2 t)) (iblk m c 6 t) (ix4 a b r w)
    = pointsMap (V m c main_arg0) (V m c main_arg1) (V m c main_arg2) (V m c main_arg3) (V m c main_arg4) (V m c main_arg5) (V m c main_arg6) (((cfg0.win 7).blk t).view.emb (ix4 a b r w))
  refine (BlockValue.stored_apply (iblk m c 0 t) (iblk m c 1 t) (iblk m c 2 t) (iblk m c 3 t) (iblk m c 4 t) (iblk m c 5 t)
    (iblk m c 6 t) a b r w).trans ?_
  rw [out_block t a b r w R hR, pointsMap_ix4,
    score_block0 m c t r w R hR, score_block1 m c t r w R hR, score_block2 m c t r w R hR, score_block3 m c t r w R hR,
    funext fun k => reg_block4 m c t k r w R hR, funext fun k => reg_block5 m c t k r w R hR,
    funext fun k => reg_block6 m c t k r w R hR]

/-! ## The blocks tile the array -/

/-- An index of the array is in point `t`'s block iff each coordinate is in the block's range on its axis. -/
theorem mem_blk (t : Fin cfg0.N) (i : S1x16x2048x2048.Idx) :
    i ∈ ((cfg0.win 7).blk t).view.set ↔ ∀ a : Fin 4, win0_7.index t a * S1x16x32x2048.size a ≤ (i a).val
      ∧ (i a).val < win0_7.index t a * S1x16x32x2048.size a + S1x16x32x2048.size a := by
  show i ∈ ((View.whole main_v0).slice (win0_7.rect t)).set ↔ _
  rw [View.set_slice_whole, Rect.mem_set_unit]
  exact Iff.rfl

/-- Every index of the result array lies in the block of the point that owns its row. -/
theorem cover (i : S1x16x2048x2048.Idx) :
    ∃ t : Fin cfg0.N, (cfg0.win 7).flush t = true ∧ i ∈ ((cfg0.win 7).blk t).view.set := by
  have h0 : (i 0).val < 1 := (i 0).isLt
  have h1 : (i 1).val < 16 := (i 1).isLt
  have h2 : (i 2).val < 2048 := (i 2).isLt
  have h3 : (i 3).val < 2048 := (i 3).isLt
  obtain ⟨t, ht⟩ := idx_onto7 ⟨(i 2).val / 32, by omega⟩
  have q0 : win0_7.index t (0 : Fin 4) = 0 := congrFun ht 0
  have q1 : win0_7.index t (1 : Fin 4) = 0 := congrFun ht 1
  have q2 : win0_7.index t (2 : Fin 4) = (i 2).val / 32 := congrFun ht 2
  have q3 : win0_7.index t (3 : Fin 4) = 0 := congrFun ht 3
  refine ⟨t, flush0_7 t, ?_⟩
  rw [mem_blk]
  intro a
  match a with
  | ⟨0, _⟩ => show win0_7.index t (0 : Fin 4) * 1 ≤ (i 0).val ∧ (i 0).val < win0_7.index t (0 : Fin 4) * 1 + 1; omega
  | ⟨1, _⟩ => show win0_7.index t (1 : Fin 4) * 16 ≤ (i 1).val ∧ (i 1).val < win0_7.index t (1 : Fin 4) * 16 + 16; omega
  | ⟨2, _⟩ => show win0_7.index t (2 : Fin 4) * 32 ≤ (i 2).val ∧ (i 2).val < win0_7.index t (2 : Fin 4) * 32 + 32; omega
  | ⟨3, _⟩ => show win0_7.index t (3 : Fin 4) * 2048 ≤ (i 3).val ∧ (i 3).val < win0_7.index t (3 : Fin 4) * 2048 + 2048; omega

/-! ## The array after the run, and the run -/

/-- THE RESULT ARRAY after the run is the specified map of the argument arrays. -/
theorem final (c : Dev nD) :
    (dats m 0 c).arrAt 7 cfg0.N = pointsMap (V m c main_arg0) (V m c main_arg1) (V m c main_arg2) (V m c main_arg3) (V m c main_arg4) (V m c main_arg5) (V m c main_arg6) :=
  (dats m 0 c).arrAt_eq_of_cover 7 (pointsMap (V m c main_arg0) (V m c main_arg1) (V m c main_arg2) (V m c main_arg3) (V m c main_arg4) (V m c main_arg5) (V m c main_arg6))
    (fun t _ => flushed_eq m c t) cover

/-- The kernel's run: every weakly fair execution terminates with the result array at the specified map of the
    argument arrays, and the arguments unchanged. -/
theorem run : θ_run defs (onTc (τ := τ) (main (F := Ideal))) ⟨m, fun _ => 0, ρ⟩ fun r => ∀ c : Dev nD,
      r.2.mem ((c : Thread nD τ).loc main_v0) = pointsMap (V m c main_arg0) (V m c main_arg1) (V m c main_arg2) (V m c main_arg3) (V m c main_arg4) (V m c main_arg5) (V m c main_arg6)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.ArrayValue

end
-- ==== Proof.RefValue.lean ====
/-
  The reference's result is the specified map (`Cert.PointsMap.pointsMap`) of its seven arguments.

  The reference spells the logistic function as the quotient 1 / (1 + e^(-x)), with the float 1.0 for both ones: on
  the extended reals that is the logistic function itself, for every x including the infinities, since the word
  0x3F800000 denotes 1. It converts each comparison's bit to a float directly, multiplies the bits of the text mask
  and of the head (or tail) mask, repeats the product along the four regression channels, multiplies by the
  regression map, and joins the pieces along the channel axis in two steps: the three gated regression maps into
  twelve channels, then the four score maps and those twelve into sixteen. Read at an index (0, b, p, q), the outer
  join picks a score map for b < 4 and the twelve-channel array at b - 4 otherwise; the inner join then picks the
  regression map by the span of four that b - 4 falls in. In every case the entry is the specification's channel b
  at the pixel (p, q).
-/
import proofs.«162157_j83708912599167_1_alg».proof.Proof.Gen.ReferenceIdeal.Read
import proofs.«162157_j83708912599167_1_alg».proof.Proof.PointsMap
import proofs.«162157_j83708912599167_1_alg».proof.Proof.LibConcatChannels
import Idealize.ShloMosaic.Lib.ValueIdx

noncomputable section

namespace Cert.ReferenceIdeal.RefValue

open Cert.ReferenceIdeal Cert.ReferenceIdeal.Read Idealize.ShloMosaic Idealize.ShloMosaic.ValueIdx
open Cert.PointsMap Idealize.ShloMosaic.ConcatChannels

/-- The float word of 1.0 denotes the real number 1. -/
theorem ofBits_one : Ideal.ofBits .f32 0x3F800000#32 = 1 := by
  simp [Ideal.ofBits, Ideal.ieee, -EReal.coe_mul]; norm_num

/-- The quotient 1.0 / (1.0 + e^(-x)) is the logistic function of x, on every extended real. -/
theorem quotient_eq_logistic (x : Ideal .f32) :
    FloatOps.hostDivf (F := Ideal) (FloatOps.ofBits .f32 0x3F800000#32)
      (FloatOps.addf (FloatOps.ofBits .f32 0x3F800000#32) (FloatOps.hostUnary .exp (FloatOps.hostNegf x))) = Ideal.logistic x := by
  show Ideal.div (Ideal.ofBits .f32 0x3F800000#32) (Ideal.ofBits .f32 0x3F800000#32 + Ideal.exp (-x)) = Ideal.div 1 (1 + Ideal.exp (-x))
  rw [ofBits_one]

variable (x0 x1 x2 x3 : (⟨S1x1x2048x2048, .f32⟩ : BufTy).Contents (Elt Ideal))
variable (x4 x5 x6 : (⟨S1x4x2048x2048, .f32⟩ : BufTy).Contents (Elt Ideal))

/-! ## The four score maps: the logistic function, entry by entry -/

theorem sig_text (i : S1x1x2048x2048.Idx) : val_main_v5 (F := Ideal) x0 i = Ideal.logistic (x0 i) := by
  rw [val_main_v5_apply, val_main_v4_apply, val_main_cst_0_apply, val_main_v3_apply, val_main_v2_apply, val_main_cst_apply,
    val_main_v1_apply, val_main_v0_apply]
  exact quotient_eq_logistic _

theorem sig_head (i : S1x1x2048x2048.Idx) : val_main_v11 (F := Ideal) x1 i = Ideal.logistic (x1 i) := by
  rw [val_main_v11_apply, val_main_v10_apply, val_main_cst_2_apply, val_main_v9_apply, val_main_v8_apply, val_main_cst_1_apply,
    val_main_v7_apply, val_main_v6_apply]
  exact quotient_eq_logistic _

theorem sig_tail (i : S1x1x2048x2048.Idx) : val_main_v17 (F := Ideal) x2 i = Ideal.logistic (x2 i) := by
  rw [val_main_v17_apply, val_main_v16_apply, val_main_cst_4_apply, val_main_v15_apply, val_main_v14_apply, val_main_cst_3_apply,
    val_main_v13_apply, val_main_v12_apply]
  exact quotient_eq_logistic _

theorem sig_bond (i : S1x1x2048x2048.Idx) : val_main_v23 (F := Ideal) x3 i = Ideal.logistic (x3 i) := by
  rw [val_main_v23_apply, val_main_v22_apply, val_main_cst_6_apply, val_main_v21_apply, val_main_v20_apply, val_main_cst_5_apply,
    val_main_v19_apply, val_main_v18_apply]
  exact quotient_eq_logistic _

/-! ## The four masks: the indicator that the score's logistic exceeds its threshold -/

theorem mask_text (i : S1x1x2048x2048.Idx) : val_main_v26 (F := Ideal) x0 i = passes 0x3EE66666#32 (x0 i) := by
  rw [val_main_v26_apply, val_main_v25_apply, val_main_v24_apply, val_main_cst_7_apply, sig_text]
  rfl

theorem mask_head (i : S1x1x2048x2048.Idx) : val_main_v29 (F := Ideal) x1 i = passes 0x3F000000#32 (x1 i) := by
  rw [val_main_v29_apply, val_main_v28_apply, val_main_v27_apply, val_main_cst_8_apply, sig_head]
  rfl

theorem mask_tail (i : S1x1x2048x2048.Idx) : val_main_v33 (F := Ideal) x2 i = passes 0x3F000000#32 (x2 i) := by
  rw [val_main_v33_apply, val_main_v32_apply, val_main_v31_apply, val_main_cst_9_apply, sig_tail]
  rfl

theorem mask_bond (i : S1x1x2048x2048.Idx) : val_main_v37 (F := Ideal) x3 i = passes 0x3F000000#32 (x3 i) := by
  rw [val_main_v37_apply, val_main_v36_apply, val_main_v35_apply, val_main_cst_10_apply, sig_bond]
  rfl

/-! ## The three gated regression maps -/

/-- Repeating a one-channel map along four channels reads it at the pixel, channel 0. -/
theorem pixel_of_v38 (a : Fin 1) (k : Fin 4) (p q : Fin 2048) : idx_main_v38 (ix4 a k p q) = ix4 0 0 p q :=
  funext fun d => match d with | ⟨0, _⟩ => rfl | ⟨1, _⟩ => rfl | ⟨2, _⟩ => rfl | ⟨3, _⟩ => rfl
theorem pixel_of_v40 (a : Fin 1) (k : Fin 4) (p q : Fin 2048) : idx_main_v40 (ix4 a k p q) = ix4 0 0 p q :=
  funext fun d => match d with | ⟨0, _⟩ => rfl | ⟨1, _⟩ => rfl | ⟨2, _⟩ => rfl | ⟨3, _⟩ => rfl
theorem pixel_of_v42 (a : Fin 1) (k : Fin 4) (p q : Fin 2048) : idx_main_v42 (ix4 a k p q) = ix4 0 0 p q :=
  funext fun d => match d with | ⟨0, _⟩ => rfl | ⟨1, _⟩ => rfl | ⟨2, _⟩ => rfl | ⟨3, _⟩ => rfl

theorem gated_head (a : Fin 1) (k : Fin 4) (p q : Fin 2048) :
    val_main_v39 (F := Ideal) x0 x1 x4 (ix4 a k p q)
      = x4 (ix4 a k p q) * (passes 0x3EE66666#32 (x0 (ix4 0 0 p q)) * passes 0x3F000000#32 (x1 (ix4 0 0 p q))) := by
  rw [val_main_v39_apply, val_main_v38_apply, pixel_of_v38, val_main_v30_apply, mask_text, mask_head]
  rfl

theorem gated_tail (a : Fin 1) (k : Fin 4) (p q : Fin 2048) :
    val_main_v41 (F := Ideal) x0 x2 x5 (ix4 a k p q)
      = x5 (ix4 a k p q) * (passes 0x3EE66666#32 (x0 (ix4 0 0 p q)) * passes 0x3F000000#32 (x2 (ix4 0 0 p q))) := by
  rw [val_main_v41_apply, val_main_v40_apply, pixel_of_v40, val_main_v34_apply, mask_text, mask_tail]
  rfl

theorem gated_bond (a : Fin 1) (k : Fin 4) (p q : Fin 2048) :
    val_main_v43 (F := Ideal) x3 x6 (ix4 a k p q) = x6 (ix4 a k p q) * passes 0x3F000000#32 (x3 (ix4 0 0 p q)) := by
  rw [val_main_v43_apply, val_main_v42_apply, pixel_of_v42, mask_bond]
  rfl

/-! ## The twelve gated channels, and the sixteen output channels -/

/-- The inner join at channel `b` of twelve: the regression map whose span of four holds `b`. -/
theorem twelve_head (b : Fin 12) (p q : Fin 2048) (h : b.val < 4) :
    val_main_v44 (F := Ideal) x0 x1 x2 x3 x4 x5 x6 (ix4 0 b p q) = val_main_v39 (F := Ideal) x0 x1 x4 (ix4 0 ⟨b.val, h⟩ p q) := by
  unfold val_main_v44
  exact concatenate_channels_apply _ _ 0 (by simp) 4 (val_main_v39 (F := Ideal) x0 x1 x4) rfl 0 rfl 0 b ⟨b.val, h⟩ (by show 0 + b.val = b.val; omega) p q

theorem twelve_tail (b : Fin 12) (p q : Fin 2048) (h0 : 4 ≤ b.val) (h : b.val < 8) :
    val_main_v44 (F := Ideal) x0 x1 x2 x3 x4 x5 x6 (ix4 0 b p q)
      = val_main_v41 (F := Ideal) x0 x2 x5 (ix4 0 ⟨b.val - 4, by omega⟩ p q) := by
  unfold val_main_v44
  exact concatenate_channels_apply _ _ 1 (by simp) 4 (val_main_v41 (F := Ideal) x0 x2 x5) rfl 4 rfl 0 b ⟨b.val - 4, by omega⟩
    (by show 4 + (b.val - 4) = b.val; omega) p q

theorem twelve_bond (b : Fin 12) (p q : Fin 2048) (h0 : 8 ≤ b.val) :
    val_main_v44 (F := Ideal) x0 x1 x2 x3 x4 x5 x6 (ix4 0 b p q)
      = val_main_v43 (F := Ideal) x3 x6 (ix4 0 ⟨b.val - 8, by have := b.isLt; omega⟩ p q) := by
  unfold val_main_v44
  exact concatenate_channels_apply _ _ 2 (by simp) 4 (val_main_v43 (F := Ideal) x3 x6) rfl 8 rfl 0 b
    ⟨b.val - 8, by have := b.isLt; omega⟩ (by show 8 + (b.val - 8) = b.val; omega) p q

/-- THE REFERENCE'S RESULT is the specified map of its arguments. -/
theorem result_eq : val_main_v45 (F := Ideal) x0 x1 x2 x3 x4 x5 x6 = pointsMap x0 x1 x2 x3 x4 x5 x6 := by
  funext j
  obtain ⟨a, b, p, q, rfl⟩ : ∃ (a : Fin 1) (b : Fin 16) (p q : Fin 2048), j = ix4 a b p q := ⟨j 0, j 1, j 2, j 3, eq_ix4 j⟩
  obtain rfl : a = 0 := Subsingleton.elim _ _
  rw [pointsMap_ix4]
  unfold val_main_v45
  by_cases h1 : b.val < 1
  · rw [chanVal_text _ _ _ _ _ _ _ _ h1]
    refine (concatenate_channels_apply _ _ 0 (by simp) 1 (val_main_v5 (F := Ideal) x0) rfl 0 rfl 0 b ⟨0, Nat.one_pos⟩
      (by show 0 + 0 = b.val; omega) p q).trans ?_
    exact sig_text x0 _
  by_cases h2 : b.val < 2
  · rw [chanVal_head _ _ _ _ _ _ _ _ (by omega) h2]
    refine (concatenate_channels_apply _ _ 1 (by simp) 1 (val_main_v11 (F := Ideal) x1) rfl 1 rfl 0 b ⟨0, Nat.one_pos⟩
      (by show 1 + 0 = b.val; omega) p q).trans ?_
    exact sig_head x1 _
  by_cases h3 : b.val < 3
  · rw [chanVal_tail _ _ _ _ _ _ _ _ (by omega) h3]
    refine (concatenate_channels_apply _ _ 2 (by simp) 1 (val_main_v17 (F := Ideal) x2) rfl 2 rfl 0 b ⟨0, Nat.one_pos⟩
      (by show 2 + 0 = b.val; omega) p q).trans ?_
    exact sig_tail x2 _
  by_cases h4 : b.val < 4
  · rw [chanVal_bond _ _ _ _ _ _ _ _ (by omega) h4]
    refine (concatenate_channels_apply _ _ 3 (by simp) 1 (val_main_v23 (F := Ideal) x3) rfl 3 rfl 0 b ⟨0, Nat.one_pos⟩
      (by show 3 + 0 = b.val; omega) p q).trans ?_
    exact sig_bond x3 _
  have hb : b.val < 16 := b.isLt
  refine (concatenate_channels_apply _ _ 4 (by simp) 12 (val_main_v44 (F := Ideal) x0 x1 x2 x3 x4 x5 x6) rfl 4 rfl 0 b
    ⟨b.val - 4, by omega⟩ (by show 4 + (b.val - 4) = b.val; omega) p q).trans ?_
  by_cases h8 : b.val < 8
  · rw [chanVal_regHead _ _ _ _ _ _ _ _ (by omega) h8, twelve_head x0 x1 x2 x3 x4 x5 x6 _ p q (by show b.val - 4 < 4; omega), gated_head]
  by_cases h12 : b.val < 12
  · rw [chanVal_regTail _ _ _ _ _ _ _ _ (by omega) h12,
      twelve_tail x0 x1 x2 x3 x4 x5 x6 _ p q (by show 4 ≤ b.val - 4; omega) (by show b.val - 4 < 8; omega), gated_tail]
    exact congrArg (fun k => x5 (ix4 0 k p q) * _) (Fin.ext (by show b.val - 4 - 4 = b.val - 8; omega))
  · rw [chanVal_regBond _ _ _ _ _ _ _ _ (by omega),
      twelve_bond x0 x1 x2 x3 x4 x5 x6 _ p q (by show 8 ≤ b.val - 4; omega), gated_bond]
    exact congrArg (fun k => x6 (ix4 0 k p q) * _) (Fin.ext (by show b.val - 4 - 8 = b.val - 12; omega))

end Cert.ReferenceIdeal.RefValue

end
-- ==== Proof.lean ====
/-
  The certificate: the kernel (logistic function, thresholds, masked products and a channel join of seven maps, computed 32 rows at a time)
  and its reference compute the same array on the extended reals.

  Both programs produce, from four score maps [1, 1, 2048, 2048] and three regression maps [1, 4, 2048, 2048], the
  array [1, 16, 2048, 2048] whose channels at a pixel are the four scores' logistic values followed by the three
  regression quadruples, each multiplied by the 0/1 indicators that the relevant logistic values exceed their
  thresholds (`Cert.PointsMap.pointsMap`, Proof/PointsMap.lean). Nothing in the comparison needs the inputs to be
  finite: the kernel's logistic operation and the reference's quotient 1 / (1 + e^(-x)) are one function on every
  extended real, the kernel's bit-to-float conversion through a word and the reference's direct conversion give the
  same 0 or 1, the two thresholds are the same floats on both sides, every product has its factors in the same
  order, and the two ways of joining the channels (seven pieces at once, or three pieces into twelve channels and
  then five into sixteen) place the same entry at every index.

  The kernel side: at each of the 64 grid points the body stores a block whose entries are the specification's
  values at the pixels of the point's 32 rows (Proof/BlockValue.lean), the 64 blocks tile the result array, so the
  array ends at the specified map of the arguments (Proof/ArrayValue.lean, over the generated frame run). The
  reference side: its generated run ends at its last operation's value, which read index by index is the specified
  map (Proof/RefValue.lean). The three frame claims are the generated frame runs; the idealization rewrote no
  operation, so there is nothing to preserve.
-/
import proofs.«162157_j83708912599167_1_alg».proof.Defs
import proofs.«162157_j83708912599167_1_alg».proof.Proof.Gen.Kernel
import proofs.«162157_j83708912599167_1_alg».proof.Proof.Gen.Kernel.Skeleton
import proofs.«162157_j83708912599167_1_alg».proof.Proof.Gen.Kernel.Launch
import proofs.«162157_j83708912599167_1_alg».proof.Proof.Gen.Kernel.Points
import proofs.«162157_j83708912599167_1_alg».proof.Proof.Gen.Kernel.Frame
import proofs.«162157_j83708912599167_1_alg».proof.Proof.Gen.KernelIdeal
import proofs.«162157_j83708912599167_1_alg».proof.Proof.Gen.KernelIdeal.Skeleton
import proofs.«162157_j83708912599167_1_alg».proof.Proof.Gen.KernelIdeal.Launch
import proofs.«162157_j83708912599167_1_alg».proof.Proof.Gen.KernelIdeal.Points
import proofs.«162157_j83708912599167_1_alg».proof.Proof.Gen.KernelIdeal.Frame
import proofs.«162157_j83708912599167_1_alg».proof.Proof.Gen.ReferenceIdeal
import proofs.«162157_j83708912599167_1_alg».proof.Proof.Gen.Pre_finite_inputs
import proofs.«162157_j83708912599167_1_alg».proof.Proof.Gen.KernelIdeal.Value
import proofs.«162157_j83708912599167_1_alg».proof.Proof.Gen.ReferenceIdeal.Run
import proofs.«162157_j83708912599167_1_alg».proof.Proof.Gen.ReferenceIdeal.Read
import proofs.«162157_j83708912599167_1_alg».proof.Proof.PointsMap
import proofs.«162157_j83708912599167_1_alg».proof.Proof.ArrayValue
import proofs.«162157_j83708912599167_1_alg».proof.Proof.RefValue
import Idealize.ShloMosaic.Adequacy
import Idealize.ShloMosaic.Init

noncomputable section

namespace Cert.Proof

open Idealize.ShloMosaic Idealize.SL.Sem

/-- The kernel as printed runs, faults nowhere and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, with its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals, from memories that agree on the seven arguments, the kernel's result array and the
    reference's result are both the specified map of the arguments. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v45_eq, Cert.ReferenceIdeal.RefValue.result_eq,
    (hagree c).1, (hagree c).2.1, (hagree c).2.2.1, (hagree c).2.2.2.1, (hagree c).2.2.2.2.1, (hagree c).2.2.2.2.2.1,
    (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
